-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2560 : Shape := ⟨2, ![8192, 2560]⟩
abbrev S2560x10240 : Shape := ⟨2, ![2560, 10240]⟩
abbrev S10240 : Shape := ⟨1, ![10240]⟩
abbrev S_ : Shape := ⟨0, ![]⟩

class Facts : Prop where
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S2560x10240 : S_.BroadcastsInDim S2560x10240 (![] : Fin 0 → Fin S2560x10240.rank)
  reducesTo_S2560x10240_S_d0_1 : S2560x10240.ReducesTo [0, 1] S_
  bcast_S_S10240 : S_.BroadcastsInDim S10240 (![] : Fin 0 → Fin S10240.rank)
  reducesTo_S10240_S_d0 : S10240.ReducesTo [0] S_

variable [Facts]

def fn_part1 {F : FTy → Type} [FloatOps F] (main_arg4 : FVec F S2560x10240 .f32) (main_arg5 : FVec F S10240 .f32) (main_arg6 : FVec F S10240 .f32) (main_v13 : IVec S_ 1) (main_v16 : IVec S2560x10240 1) : IVec S_ 1 :=
  let main_c_5 : IVec S_ 1 := constantI S_ 1 1#1
  let main_v17 : IVec S_ 1 := (fun x v => Host.reduce IntOp.andi x v reducesTo_S2560x10240_S_d0_1 h_S_) main_v16 main_c_5
  let main_v18 : IVec S_ 1 := andi main_v13 main_v17
  let main_v19 : FVec F S2560x10240 .f32 := Host.absf main_arg4
  let main_cst_6 : FVec F S_ .f32 := constant S_ .f32 0x7F800000#32
  let main_v20 : FVec F S2560x10240 .f32 := broadcastInDim S2560x10240 ![] bcast_S_S2560x10240 main_cst_6
  let main_v21 : IVec S2560x10240 1 := cmpf .olt main_v19 main_v20
  let main_c_7 : IVec S_ 1 := constantI S_ 1 1#1
  let main_v22 : IVec S_ 1 := (fun x v => Host.reduce IntOp.andi x v reducesTo_S2560x10240_S_d0_1 h_S_) main_v21 main_c_7
  let main_v23 : IVec S_ 1 := andi main_v18 main_v22
  let main_v24 : FVec F S10240 .f32 := Host.absf main_arg5
  let main_cst_8 : FVec F S_ .f32 := constant S_ .f32 0x7F800000#32
  let main_v25 : FVec F S10240 .f32 := broadcastInDim S10240 ![] bcast_S_S10240 main_cst_8
  let main_v26 : IVec S10240 1 := cmpf .olt main_v24 main_v25
  let main_c_9 : IVec S_ 1 := constantI S_ 1 1#1
  let main_v27 : IVec S_ 1 := (fun x v => Host.reduce IntOp.andi x v reducesTo_S10240_S_d0 h_S_) main_v26 main_c_9
  let main_v28 : IVec S_ 1 := andi main_v23 main_v27
  let main_v29 : FVec F S10240 .f32 := Host.absf main_arg6
  let main_cst_10 : FVec F S_ .f32 := constant S_ .f32 0x7F800000#32
  let main_v30 : FVec F S10240 .f32 := broadcastInDim S10240 ![] bcast_S_S10240 main_cst_10
  let main_v31 : IVec S10240 1 := cmpf .olt main_v29 main_v30
  let main_c_11 : IVec S_ 1 := constantI S_ 1 1#1
  let main_v32 : IVec S_ 1 := (fun x v => Host.reduce IntOp.andi x v reducesTo_S10240_S_d0 h_S_) main_v31 main_c_11
  let main_v33 : IVec S_ 1 := andi main_v28 main_v32
  main_v33

def fn {F : FTy → Type} [FloatOps F] (main_arg0 : FVec F S8192x2560 .f32) (main_arg1 : FVec F S8192x2560 .f32) (main_arg2 : FVec F S8192x2560 .f32) (main_arg3 : FVec F S2560x10240 .f32) (main_arg4 : FVec F S2560x10240 .f32) (main_arg5 : FVec F S10240 .f32) (main_arg6 : FVec F S10240 .f32) : IVec S_ 1 :=
  let main_v0 : FVec F S8192x2560 .f32 := Host.absf main_arg0
  let main_cst : FVec F S_ .f32 := constant S_ .f32 0x7F800000#32
  let main_v1 : FVec F S8192x2560 .f32 := broadcastInDim S8192x2560 ![] bcast_S_S8192x2560 main_cst
  let main_v2 : IVec S8192x2560 1 := cmpf .olt main_v0 main_v1
  let main_c : IVec S_ 1 := constantI S_ 1 1#1
  let main_v3 : IVec S_ 1 := (fun x v => Host.reduce IntOp.andi x v reducesTo_S8192x2560_S_d0_1 h_S_) main_v2 main_c
  let main_v4 : FVec F S8192x2560 .f32 := Host.absf main_arg1
  let main_cst_0 : FVec F S_ .f32 := constant S_ .f32 0x7F800000#32
  let main_v5 : FVec F S8192x2560 .f32 := broadcastInDim S8192x2560 ![] bcast_S_S8192x2560 main_cst_0
  let main_v6 : IVec S8192x2560 1 := cmpf .olt main_v4 main_v5
  let main_c_1 : IVec S_ 1 := constantI S_ 1 1#1
  let main_v7 : IVec S_ 1 := (fun x v => Host.reduce IntOp.andi x v reducesTo_S8192x2560_S_d0_1 h_S_) main_v6 main_c_1
  let main_v8 : IVec S_ 1 := andi main_v3 main_v7
  let main_v9 : FVec F S8192x2560 .f32 := Host.absf main_arg2
  let main_cst_2 : FVec F S_ .f32 := constant S_ .f32 0x7F800000#32
  let main_v10 : FVec F S8192x2560 .f32 := broadcastInDim S8192x2560 ![] bcast_S_S8192x2560 main_cst_2
  let main_v11 : IVec S8192x2560 1 := cmpf .olt main_v9 main_v10
  let main_c_3 : IVec S_ 1 := constantI S_ 1 1#1
  let main_v12 : IVec S_ 1 := (fun x v => Host.reduce IntOp.andi x v reducesTo_S8192x2560_S_d0_1 h_S_) main_v11 main_c_3
  let main_v13 : IVec S_ 1 := andi main_v8 main_v12
  let main_v14 : FVec F S2560x10240 .f32 := Host.absf main_arg3
  let main_cst_4 : FVec F S_ .f32 := constant S_ .f32 0x7F800000#32
  let main_v15 : FVec F S2560x10240 .f32 := broadcastInDim S2560x10240 ![] bcast_S_S2560x10240 main_cst_4
  let main_v16 : IVec S2560x10240 1 := cmpf .olt main_v14 main_v15
  fn_part1 (F := F) main_arg4 main_arg5 main_arg6 main_v13 main_v16
-- ==== Kernel.lean ====
abbrev S8192x2560 : Shape := ⟨2, ![8192, 2560]⟩
abbrev S2560x10240 : Shape := ⟨2, ![2560, 10240]⟩
abbrev S10240 : Shape := ⟨1, ![10240]⟩
abbrev S1x10240 : Shape := ⟨2, ![1, 10240]⟩
abbrev S256x2560 : Shape := ⟨2, ![256, 2560]⟩
abbrev S2560x2048 : Shape := ⟨2, ![2560, 2048]⟩
abbrev S1x2048 : Shape := ⟨2, ![1, 2048]⟩
abbrev S256x512 : Shape := ⟨2, ![256, 512]⟩
abbrev S256x2048 : Shape := ⟨2, ![256, 2048]⟩

abbrev nBuf : Space → Nat
  | .hbm => 15
  | .vmem => 18
  | .smem => 0
  | _ => 0

abbrev bufTy : (tb : Table) → Fin (tcTables nBuf tb) → BufTy
  | .hbm, ⟨0, _⟩ => ⟨S8192x2560, .f32⟩
  | .hbm, ⟨1, _⟩ => ⟨S8192x2560, .f32⟩
  | .hbm, ⟨2, _⟩ => ⟨S8192x2560, .f32⟩
  | .hbm, ⟨3, _⟩ => ⟨S2560x10240, .f32⟩
  | .hbm, ⟨4, _⟩ => ⟨S2560x10240, .f32⟩
  | .hbm, ⟨5, _⟩ => ⟨S10240, .f32⟩
  | .hbm, ⟨6, _⟩ => ⟨S10240, .f32⟩
  | .hbm, ⟨7, _⟩ => ⟨S8192x2560, .bf16⟩
  | .hbm, ⟨8, _⟩ => ⟨S8192x2560, .bf16⟩
  | .hbm, ⟨9, _⟩ => ⟨S2560x10240, .bf16⟩
  | .hbm, ⟨10, _⟩ => ⟨S2560x10240, .bf16⟩
  | .hbm, ⟨11, _⟩ => ⟨S1x10240, .f32⟩
  | .hbm, ⟨12, _⟩ => ⟨S1x10240, .f32⟩
  | .hbm, ⟨13, _⟩ => ⟨S8192x2560, .f32⟩
  | .hbm, ⟨14, _⟩ => ⟨S8192x2560, .f32⟩
  | .local _ .vmem, ⟨0, _⟩ => ⟨S256x2560, .bf16⟩
  | .local _ .vmem, ⟨1, _⟩ => ⟨S256x2560, .bf16⟩
  | .local _ .vmem, ⟨2, _⟩ => ⟨S256x2560, .bf16⟩
  | .local _ .vmem, ⟨3, _⟩ => ⟨S256x2560, .bf16⟩
  | .local _ .vmem, ⟨4, _⟩ => ⟨S2560x2048, .bf16⟩
  | .local _ .vmem, ⟨5, _⟩ => ⟨S2560x2048, .bf16⟩
  | .local _ .vmem, ⟨6, _⟩ => ⟨S2560x2048, .bf16⟩
  | .local _ .vmem, ⟨7, _⟩ => ⟨S2560x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![5, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2560x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  shapeCasts_S10240_S1x10240 : S10240.ShapeCasts S1x10240
  inb_S256x2560_S256x2560_0_0 : ∀ a, (![0, 0] : Fin 2 → Nat) a + S256x2560.size a ≤ S256x2560.size a
  h_S256x2560 : 0 < S256x2560.numel
  shapeCasts_S256x2560_S256x2560 : S256x2560.ShapeCasts S256x2560
  inb_S2560x2048_S2560x2048_0_0 : ∀ a, (![0, 0] : Fin 2 → Nat) a + S2560x2048.size a ≤ S2560x2048.size a
  h_S2560x2048 : 0 < S2560x2048.numel
  shapeCasts_S2560x2048_S2560x2048 : S2560x2048.ShapeCasts S2560x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  inb_S256x512_S256x512_0_0 : ∀ a, (![0, 0] : Fin 2 → Nat) a + S256x512.size a ≤ S256x512.size a
  h_S256x512 : 0 < S256x512.numel
  dot_S256x2560_S2560x2048_S256x2048_1_0_0_1_n_n_wf : DotDims.WF S256x2560 S2560x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2560.size a ≤ S8192x2560.size a
  hwx0_0 : ∀ i : grid0.Coords, EltTy.bits .bf16 = 32 ∨ (Rect.block (s := S8192x2560) S256x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2560.size a ≤ S8192x2560.size a
  hwx0_1 : ∀ i : grid0.Coords, EltTy.bits .bf16 = 32 ∨ (Rect.block (s := S8192x2560) S256x2560.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x2048.size a ≤ S2560x10240.size a
  hwx0_2 : ∀ i : grid0.Coords, EltTy.bits .bf16 = 32 ∨ (Rect.block (s := S2560x10240) S2560x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2560x2048.size a ≤ S2560x10240.size a
  hwx0_3 : ∀ i : grid0.Coords, EltTy.bits .bf16 = 32 ∨ (Rect.block (s := S2560x10240) S2560x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x10240.size a
  hwx0_4 : ∀ i : grid0.Coords, EltTy.bits .f32 = 32 ∨ (Rect.block (s := S1x10240) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x10240.size a
  hwx0_5 : ∀ i : grid0.Coords, EltTy.bits .f32 = 32 ∨ (Rect.block (s := S1x10240) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S8192x2560.size a
  hwx0_6 : ∀ i : grid0.Coords, EltTy.bits .f32 = 32 ∨ (Rect.block (s := S8192x2560) S256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S8192x2560.size a
  hwx0_7 : ∀ i : grid0.Coords, EltTy.bits .f32 = 32 ∨ (Rect.block (s := S8192x2560) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S8192x2560.size a
  hwx0_8 : ∀ i : grid0.Coords, EltTy.bits .f32 = 32 ∨ (Rect.block (s := S8192x2560) S256x512.size (cc0_transform_8 i) (hinb0_8 i)).WholeWords (EltTy.packing .f32)

variable [Facts₀]

def dot_S256x2560_S2560x2048_S256x2048_1_0_0_1_n_n : DotDims S256x2560 S2560x2048 S256x2048 where
  lhsContracting := [1]
  rhsContracting := [0]
  lhsNonContracting := [0]
  rhsNonContracting := [1]
  lhsBatch := []
  rhsBatch := []
  wf := dot_S256x2560_S2560x2048_S256x2048_1_0_0_1_n_n_wf

abbrev win0_0 : Pipeline.Window sig grid0 :=
  Pipeline.Window.ofSpec (Memref.whole main_v0) S256x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2560x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2560x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S256x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S256x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x2560 : Shape := ⟨2, ![8192, 2560]⟩
abbrev S2560x10240 : Shape := ⟨2, ![2560, 10240]⟩
abbrev S10240 : Shape := ⟨1, ![10240]⟩
abbrev S8192x10240 : Shape := ⟨2, ![8192, 10240]⟩
abbrev S1x10240 : Shape := ⟨2, ![1, 10240]⟩
abbrev S8192x2048 : Shape := ⟨2, ![8192, 2048]⟩
abbrev S8192x512 : Shape := ⟨2, ![8192, 512]⟩
abbrev S_ : Shape := ⟨0, ![]⟩

abbrev nBuf : Space → Nat
  | .hbm => 198
  | .vmem => 0
  | .smem => 0
  | _ => 0

abbrev hbmTy0_0 (i : Nat) : BufTy := match i % 128 with
  | 0 => ⟨S8192x2560, .f32⟩
  | 1 => ⟨S8192x2560, .f32⟩
  | 2 => ⟨S8192x2560, .f32⟩
  | 3 => ⟨S2560x10240, .f32⟩
  | 4 => ⟨S2560x10240, .f32⟩
  | 5 => ⟨S10240, .f32⟩
  | 6 => ⟨S10240, .f32⟩
  | 7 => ⟨S8192x10240, .f32⟩
  | 8 => ⟨S1x10240, .f32⟩
  | 9 => ⟨S8192x10240, .f32⟩
  | 10 => ⟨S8192x10240, .f32⟩
  | 11 => ⟨S8192x10240, .f32⟩
  | 12 => ⟨S8192x10240, .f32⟩
  | 13 => ⟨S1x10240, .f32⟩
  | 14 => ⟨S8192x10240, .f32⟩
  | 15 => ⟨S8192x10240, .f32⟩
  | 16 => ⟨S8192x2048, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S_, .f32⟩
  | 49 => ⟨S8192x512, .f32⟩
  | 50 => ⟨S8192x512, .f32⟩
  | 51 => ⟨S8192x512, .f32⟩
  | 52 => ⟨S8192x2048, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S_, .f32⟩
  | 64 => ⟨S8192x512, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S_, .f32⟩
  | 82 => ⟨S8192x512, .f32⟩
  | 83 => ⟨S8192x512, .f32⟩
  | 84 => ⟨S_, .f32⟩
  | 85 => ⟨S8192x512, .f32⟩
  | 86 => ⟨S8192x512, .f32⟩
  | 87 => ⟨S8192x512, .f32⟩
  | 88 => ⟨S8192x2048, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S8192x512, .f32⟩
  | 96 => ⟨S_, .f32⟩
  | 97 => ⟨S8192x512, .f32⟩
  | 98 => ⟨S8192x512, .f32⟩
  | 99 => ⟨S_, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S_, .f32⟩
  | 110 => ⟨S8192x512, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S_, .f32⟩
  | 121 => ⟨S8192x512, .f32⟩
  | 122 => ⟨S8192x512, .f32⟩
  | 123 => ⟨S8192x512, .f32⟩
  | 124 => ⟨S8192x2048, .f32⟩
  | 125 => ⟨S8192x512, .f32⟩
  | 126 => ⟨S8192x512, .f32⟩
  | 127 => ⟨S8192x512, .f32⟩
  | _ => ⟨S8192x2560, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S_, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S8192x512, .f32⟩
  | 32 => ⟨S8192x2048, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S8192x512, .f32⟩
  | 68 => ⟨S8192x2560, .f32⟩
  | 69 => ⟨S8192x2560, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_v78 : Ref sig .tc := ⟨.hbm, 98, rfl⟩
abbrev main_cst_12 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_13 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_15 : Ref sig .tc := ⟨.hbm, 117, rfl⟩
abbrev main_v94 : Ref sig .tc := ⟨.hbm, 118, rfl⟩
abbrev main_v95 : Ref sig .tc := ⟨.hbm, 119, rfl⟩
abbrev main_cst_16 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_17 : Ref sig .tc := ⟨.hbm, 132, rfl⟩
abbrev main_v107 : Ref sig .tc := ⟨.hbm, 133, rfl⟩
abbrev main_v108 : Ref sig .tc := ⟨.hbm, 134, rfl⟩
abbrev main_cst_18 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_19 : Ref sig .tc := ⟨.hbm, 142, rfl⟩
abbrev main_v115 : Ref sig .tc := ⟨.hbm, 143, rfl⟩
abbrev main_v116 : Ref sig .tc := ⟨.hbm, 144, rfl⟩
abbrev main_cst_20 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_21 : Ref sig .tc := ⟨.hbm, 153, rfl⟩
abbrev main_v124 : Ref sig .tc := ⟨.hbm, 154, rfl⟩
abbrev main_v125 : Ref sig .tc := ⟨.hbm, 155, rfl⟩
abbrev main_cst_22 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_23 : Ref sig .tc := ⟨.hbm, 168, rfl⟩
abbrev main_v137 : Ref sig .tc := ⟨.hbm, 169, rfl⟩
abbrev main_v138 : Ref sig .tc := ⟨.hbm, 170, rfl⟩
abbrev main_cst_24 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_25 : Ref sig .tc := ⟨.hbm, 178, rfl⟩
abbrev main_v145 : Ref sig .tc := ⟨.hbm, 179, rfl⟩
abbrev main_v146 : Ref sig .tc := ⟨.hbm, 180, rfl⟩
abbrev main_cst_26 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_27 : Ref sig .tc := ⟨.hbm, 189, rfl⟩
abbrev main_v154 : Ref sig .tc := ⟨.hbm, 190, rfl⟩
abbrev main_v155 : Ref sig .tc := ⟨.hbm, 191, rfl⟩
abbrev main_cst_28 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩

abbrev nD : Nat := 1
abbrev τ : Topo := Topo.v7x

variable {F : FTy → Type} [FloatOps F]

class Facts₀ : Prop where
  bcast_S10240_S1x10240_1 : S10240.BroadcastsInDim S1x10240 (![1] : Fin 1 → Fin S1x10240.rank)
  bcast_S1x10240_S8192x10240_0_1 : S1x10240.BroadcastsInDim S8192x10240 (![0, 1] : Fin 2 → Fin S8192x10240.rank)
  slices_S8192x10240_S8192x2048_0_0 : S8192x10240.Slices ![0, 0] S8192x2048
  slices_S8192x2048_S8192x512_0_0 : S8192x2048.Slices ![0, 0] S8192x512
  slices_S8192x2048_S8192x512_0_512 : S8192x2048.Slices ![0, 512] S8192x512
  slices_S8192x2048_S8192x512_0_1024 : S8192x2048.Slices ![0, 1024] S8192x512
  slices_S8192x2048_S8192x512_0_1536 : S8192x2048.Slices ![0, 1536] S8192x512
  bcast_S_S8192x512 : S_.BroadcastsInDim S8192x512 (![] : Fin 0 → Fin S8192x512.rank)
  slices_S8192x2560_S8192x512_0_0 : S8192x2560.Slices ![0, 0] S8192x512
  slices_S8192x10240_S8192x2048_0_2048 : S8192x10240.Slices ![0, 2048] S8192x2048
  slices_S8192x2560_S8192x512_0_512 : S8192x2560.Slices ![0, 512] S8192x512
  slices_S8192x10240_S8192x2048_0_4096 : S8192x10240.Slices ![0, 4096] S8192x2048
  slices_S8192x2560_S8192x512_0_1024 : S8192x2560.Slices ![0, 1024] S8192x512
  slices_S8192x10240_S8192x2048_0_6144 : S8192x10240.Slices ![0, 6144] S8192x2048
  slices_S8192x2560_S8192x512_0_1536 : S8192x2560.Slices ![0, 1536] S8192x512
  slices_S8192x10240_S8192x2048_0_8192 : S8192x10240.Slices ![0, 8192] S8192x2048
  slices_S8192x2560_S8192x512_0_2048 : S8192x2560.Slices ![0, 2048] S8192x512
  concatenates_S8192x512_S8192x512_S8192x512_S8192x512_S8192x512_S8192x2560_d1 : Shape.Concatenates [S8192x512, S8192x512, S8192x512, S8192x512, S8192x512] S8192x2560 1
  dot_S8192x2560_S2560x10240_S8192x10240_1_0_0_1_n_n_wf : DotDims.WF S8192x2560 S2560x10240 S8192x10240 [1] [0] [0] [1] [] []

variable [Facts₀]

def dot_S8192x2560_S2560x10240_S8192x10240_1_0_0_1_n_n : DotDims S8192x2560 S2560x10240 S8192x10240 where
  lhsContracting := [1]
  rhsContracting := [0]
  lhsNonContracting := [0]
  rhsNonContracting := [1]
  lhsBatch := []
  rhsBatch := []
  wf := dot_S8192x2560_S2560x10240_S8192x10240_1_0_0_1_n_n_wf

class Facts : Prop extends Facts₀ where

variable [Facts]
-- ==== Proof.LstmSpec.lean ====
/-
  The cell update as ONE function of the seven argument arrays, index by index, on the extended reals.

  With x, h, c the [8192, 2560] input, hidden state and cell state, W_x, W_h the [2560, 10240] weights and b_x, b_h the
  [10240] biases, the gate pre-activation at row r and gate column j is
      gate r j = (Σ_k x[r,k]·W_x[k,j] + Σ_k h[r,k]·W_h[k,j]) + (b_x[j] + b_h[j]).
  The 10240 gate columns are five groups of 2048, each group four runs of 512 (candidate | input | forget | output); hidden
  column n = 512·g + d reads run s of group g at gate column 2048·g + 512·s + d (`col n s`). Then
      cell r n = tanh(gate r (col n 0)) · σ(gate r (col n 1)) + c[r,n] · σ(gate r (col n 2)),
      hid  r n = tanh(cell r n) · σ(gate r (col n 3)).
  Also here: the one law that joins the two programs' spellings of the gate — a sum of four extended reals regrouped
  (addition on the extended reals is commutative and associative, infinities included).
-/
import Idealize.ShloMosaic.PureOps.Ideal
import Idealize.ShloMosaic.Lib.ValueIdx

noncomputable section

open scoped BigOperators

namespace Cert.LstmSpec

open Idealize.ShloMosaic Idealize.ShloMosaic.ValueIdx

/-- The shape of the input, the two states and the two results. -/
abbrev SX : Shape := ⟨2, ![8192, 2560]⟩
/-- The shape of the two weight matrices. -/
abbrev SW : Shape := ⟨2, ![2560, 10240]⟩
/-- The shape of the two bias vectors. -/
abbrev SB : Shape := ⟨1, ![10240]⟩

/-- Hidden column `n = 512·g + d` reads run `s` of its group at gate column `2048·g + 512·s + d`. -/
def col (n : Fin 2560) (s : Fin 4) : Fin 10240 :=
  ⟨2048 * (n.val / 512) + 512 * s.val + n.val % 512, by have := n.isLt; have := s.isLt; omega⟩

theorem col_val (n : Fin 2560) (s : Fin 4) : (col n s).val = 2048 * (n.val / 512) + 512 * s.val + n.val % 512 := rfl

section
variable (x h c : SX.Idx → EReal) (wx wh : SW.Idx → EReal) (bx bh : SB.Idx → EReal)

/-- The gate pre-activation at row `r`, gate column `j`. -/
def gate (r : Fin 8192) (j : Fin 10240) : EReal :=
  ((∑ k : Fin 2560, x (ix2 r k) * wx (ix2 k j)) + ∑ k : Fin 2560, h (ix2 r k) * wh (ix2 k j)) + (bx (ix1 j) + bh (ix1 j))

/-- The new cell state at row `r`, hidden column `n`. -/
def cell (r : Fin 8192) (n : Fin 2560) : EReal :=
  Ideal.tanh (gate x h wx wh bx bh r (col n 0)) * Ideal.logistic (gate x h wx wh bx bh r (col n 1))
    + c (ix2 r n) * Ideal.logistic (gate x h wx wh bx bh r (col n 2))

/-- The new hidden state at row `r`, hidden column `n`. -/
def hid (r : Fin 8192) (n : Fin 2560) : EReal :=
  Ideal.tanh (cell x h c wx wh bx bh r n) * Ideal.logistic (gate x h wx wh bx bh r (col n 3))

/-- The new cell state as an array. -/
def newCell : SX.Idx → EReal := fun i => cell x h c wx wh bx bh (i 0) (i 1)

/-- The new hidden state as an array. -/
def newHid : SX.Idx → EReal := fun i => hid x h c wx wh bx bh (i 0) (i 1)

theorem newCell_ix2 (r : Fin 8192) (n : Fin 2560) : newCell x h c wx wh bx bh (ix2 r n) = cell x h c wx wh bx bh r n := rfl
theorem newHid_ix2 (r : Fin 8192) (n : Fin 2560) : newHid x h c wx wh bx bh (ix2 r n) = hid x h c wx wh bx bh r n := rfl

end

/-- Four extended reals added as ((A + b) + B) + b' are (A + B) + (b + b'). -/
theorem add4_regroup (A b B b' : EReal) : ((A + b) + B) + b' = (A + B) + (b + b') := by
  rw [add_right_comm A b B, add_assoc]

/-- The logistic function is 1 / (1 + e^(-x)) on every extended real, by definition. -/
theorem logistic_eq (x : EReal) : Ideal.div 1 (1 + Ideal.exp (-x)) = Ideal.logistic x := rfl

end Cert.LstmSpec

end
-- ==== Proof.LstmPayload.lean ====
/-
  The body's gate block at an index. At a grid point the body loads a [256, 2560] block of the input and of the hidden
  state, a [2560, 2048] block of each weight matrix and a [1, 2048] block of each bias, and forms the [256, 2048] block
      (X · W_x + H · W_h) + (b_x + b_h)        (two products into zero accumulators, the bias row broadcast over rows).
  Read on the extended reals at (p, q) that is
      (Σ_k X[p,k]·W_x[k,q] + Σ_k H[p,k]·W_h[k,q]) + (b_x[0,q] + b_h[0,q]),
  the products' contraction index re-indexed to its one coordinate k < 2560.
-/
import proofs.«134608_j84550726189464_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The block product's dimension numbers: rows × contraction times contraction × columns. -/
abbrev KD : DotDims S256x2560 S2560x2048 S256x2048 := dot_S256x2560_S2560x2048_S256x2048_1_0_0_1_n_n

theorem lhs_row (i : S256x2048.Idx) (q : KD.contr.Idx) : (KD.lhsIdx i q 0).val = (i 0).val := by
  unfold DotDims.lhsIdx
  rw [dif_neg (show ¬(0 : Fin S256x2560.rank) ∈ KD.lhsBatch by decide), dif_pos (show (0 : Fin S256x2560.rank) ∈ KD.lhsNonContracting by decide)]
  rfl

theorem lhs_contr (i : S256x2048.Idx) (q : KD.contr.Idx) : (KD.lhsIdx i q 1).val = (q ⟨0, by decide⟩).val :=
  KD.lhsIdx_val_of_single rfl i q

theorem rhs_contr (i : S256x2048.Idx) (q : KD.contr.Idx) : (KD.rhsIdx i q 0).val = (q ⟨0, by decide⟩).val :=
  KD.rhsIdx_val_of_single rfl i q

theorem rhs_col (i : S256x2048.Idx) (q : KD.contr.Idx) : (KD.rhsIdx i q 1).val = (i 1).val := by
  unfold DotDims.rhsIdx
  rw [dif_neg (show ¬(1 : Fin S2560x2048.rank) ∈ KD.rhsBatch by decide), dif_pos (show (1 : Fin S2560x2048.rank) ∈ KD.rhsNonContracting by decide)]
  rfl

/-- A block product into the zero accumulator, at (p, q): the sum over the contraction coordinate. -/
theorem mm_apply (A : FVec Ideal S256x2560 .bf16) (B : FVec Ideal S2560x2048 .bf16) (p : Fin 256) (q : Fin 2048) :
    matmul KD none A B (constant (F := Ideal) S256x2048 .f32 0x00000000#32) (ix2 p q)
      = ∑ k : Fin 2560, A (ix2 p k) * B (ix2 k q) := by
  simp only [matmul]
  rw [Ideal.matmul_constant_zero_apply, ← Equiv.sum_comp (contrEquiv1 KD 2560 rfl rfl).symm]
  refine Finset.sum_congr rfl fun k _ => ?_
  have hk := contrEquiv1_symm_val KD 2560 rfl rfl k
  have el : KD.lhsIdx (ix2 p q) ((contrEquiv1 KD 2560 rfl rfl).symm k) = ix2 p k := funext fun a => Fin.ext (by
    match a with
    | ⟨0, _⟩ => exact lhs_row _ _
    | ⟨1, _⟩ => exact (lhs_contr _ _).trans hk)
  have er : KD.rhsIdx (ix2 p q) ((contrEquiv1 KD 2560 rfl rfl).symm k) = ix2 k q := funext fun a => Fin.ext (by
    match a with
    | ⟨0, _⟩ => exact (rhs_contr _ _).trans hk
    | ⟨1, _⟩ => exact rhs_col _ _)
  rw [el, er]

/-- The gate block at (p, q). -/
theorem pay1_apply (P0 : Vec Ideal S256x2560 .bf16) (P1 : Vec Ideal S2560x2048 .bf16) (P2 : Vec Ideal S256x2560 .bf16)
    (P3 : Vec Ideal S2560x2048 .bf16) (P4 P5 : Vec Ideal S1x2048 .f32) (p : Fin 256) (q : Fin 2048) :
    k0_pay1 P0 P1 P2 P3 P4 P5 (ix2 p q)
      = ((∑ k : Fin 2560, (P0 (ix2 p k) : EReal) * P1 (ix2 k q)) + ∑ k : Fin 2560, (P2 (ix2 p k) : EReal) * P3 (ix2 k q))
        + ((P4 (ix2 (0 : Fin 1) q) : EReal) + P5 (ix2 (0 : Fin 1) q)) := by
  unfold k0_pay1
  simp only [shapeCast_self]
  show (matmul KD none P0 P1 (constant (F := Ideal) S256x2048 .f32 0x00000000#32) (ix2 p q)
      + matmul KD none P2 P3 (constant (F := Ideal) S256x2048 .f32 0x00000000#32) (ix2 p q))
      + broadcastTo S256x2048 (addf P4 P5) _ (ix2 p q) = _
  rw [mm_apply P0 P1 p q, mm_apply P2 P3 p q, broadcastTo_1b_ab_apply]
  rfl

end Cert.KernelIdeal.Payload

end
-- ==== Proof.LstmBlock.lean ====
/-
  What one grid point leaves in its two output blocks IS the specification's block.

  Grid point (g, b) — gate group g < 5, batch tile b < 32 — holds rows 256·b … 256·b + 255 of the input and of the hidden
  state, gate columns 2048·g … 2048·g + 2047 of both weight matrices and of both biases, and the [256, 512] block
  (rows 256·b …, hidden columns 512·g …) of the cell state. Its gate block at (p, q) is therefore the specification's gate
  at (256·b + p, 2048·g + q); the four runs of 512 columns the body slices out of it are the group's four gates, and the
  two stored blocks at (p, d) are the new hidden and cell states at (256·b + p, 512·g + d).
  Stated over arbitrary vectors of the loads' shapes, the blocks' contents given as hypotheses.
-/
import proofs.«134608_j84550726189464_1_alg».proof.Proof.Gen.KernelIdeal.Value
import proofs.«134608_j84550726189464_1_alg».proof.Proof.LstmSpec
import proofs.«134608_j84550726189464_1_alg».proof.Proof.LstmPayload

noncomputable section

open scoped BigOperators

namespace Cert.KernelIdeal.Block

open Cert.KernelIdeal Cert.KernelIdeal.Gen Cert.KernelIdeal.Payload Cert.LstmSpec Idealize.ShloMosaic Idealize.ShloMosaic.ValueIdx

section
variable (x h c : SX.Idx → EReal) (wx wh : SW.Idx → EReal) (bx bh : SB.Idx → EReal)
variable (P0 : Vec Ideal S256x2560 .bf16) (P1 : Vec Ideal S2560x2048 .bf16) (P2 : Vec Ideal S256x2560 .bf16)
  (P3 : Vec Ideal S2560x2048 .bf16) (P4 P5 : Vec Ideal S1x2048 .f32) (P6 : Vec Ideal S256x512 .f32)
variable (b g : ℕ)

/-- The loaded blocks are the argument arrays' blocks at batch tile `b`, gate group `g`. -/
structure IsPoint : Prop where
  inp : ∀ (p : Fin 256) (k : Fin 2560) (r : Fin 8192), r.val = 256 * b + p.val → (P0 (ix2 p k) : EReal) = x (ix2 r k)
  wih : ∀ (k : Fin 2560) (q : Fin 2048) (j : Fin 10240), j.val = 2048 * g + q.val → (P1 (ix2 k q) : EReal) = wx (ix2 k j)
  hst : ∀ (p : Fin 256) (k : Fin 2560) (r : Fin 8192), r.val = 256 * b + p.val → (P2 (ix2 p k) : EReal) = h (ix2 r k)
  whh : ∀ (k : Fin 2560) (q : Fin 2048) (j : Fin 10240), j.val = 2048 * g + q.val → (P3 (ix2 k q) : EReal) = wh (ix2 k j)
  bih : ∀ (q : Fin 2048) (j : Fin 10240), j.val = 2048 * g + q.val → (P4 (ix2 (0 : Fin 1) q) : EReal) = bx (ix1 j)
  bhh : ∀ (q : Fin 2048) (j : Fin 10240), j.val = 2048 * g + q.val → (P5 (ix2 (0 : Fin 1) q) : EReal) = bh (ix1 j)
  cst : ∀ (p : Fin 256) (d : Fin 512) (r : Fin 8192) (n : Fin 2560), r.val = 256 * b + p.val → n.val = 512 * g + d.val →
    (P6 (ix2 p d) : EReal) = c (ix2 r n)

variable {x h c wx wh bx bh P0 P1 P2 P3 P4 P5 P6 b g}

/-- The point's gate block at (p, q) is the gate at (256·b + p, 2048·g + q). -/
theorem gate_block (H : IsPoint x h c wx wh bx bh P0 P1 P2 P3 P4 P5 P6 b g) (p : Fin 256) (q : Fin 2048) (r : Fin 8192)
    (j : Fin 10240) (hr : r.val = 256 * b + p.val) (hj : j.val = 2048 * g + q.val) :
    k0_pay1 P0 P1 P2 P3 P4 P5 (ix2 p q) = gate x h wx wh bx bh r j := by
  rw [pay1_apply, H.bih q j hj, H.bhh q j hj]
  unfold gate
  congr 2
  · exact Finset.sum_congr rfl fun k _ => by rw [H.inp p k r hr, H.wih k q j hj]
  · exact Finset.sum_congr rfl fun k _ => by rw [H.hst p k r hr, H.whh k q j hj]

/-- The point's cell block at `y` is the new cell state at the array index over it. -/
theorem cell_block (H : IsPoint x h c wx wh bx bh P0 P1 P2 P3 P4 P5 P6 b g) (y : S256x512.Idx) (i : SX.Idx)
    (hi0 : (i 0).val = 256 * b + (y 0).val) (hi1 : (i 1).val = 512 * g + (y 1).val) :
    Value.E8 P0 P1 P2 P3 P4 P5 P6 y = newCell x h c wx wh bx bh i := by
  obtain ⟨p, d, rfl⟩ : ∃ (p : Fin 256) (d : Fin 512), y = ix2 p d := ⟨y 0, y 1, eq_ix2 y⟩
  obtain ⟨r, n, rfl⟩ : ∃ (r : Fin 8192) (n : Fin 2560), i = ix2 r n := ⟨i 0, i 1, eq_ix2 i⟩
  have hr : r.val = 256 * b + p.val := hi0
  have hn : n.val = 512 * g + d.val := hi1
  have hd : d.val < 512 := d.isLt
  have e0 : Value.ix8_0 (ix2 p d) = ix2 p (⟨d.val, by omega⟩ : Fin 2048) := funext fun a => by
    match a with | ⟨0, _⟩ => rfl | ⟨1, _⟩ => rfl
  have e1 : Value.ix8_1 (ix2 p d) = ix2 p (⟨d.val + 512, by omega⟩ : Fin 2048) := funext fun a => by
    match a with | ⟨0, _⟩ => rfl | ⟨1, _⟩ => rfl
  have e2 : Value.ix8_2 (ix2 p d) = ix2 p d := funext fun a => by
    match a with | ⟨0, _⟩ => rfl | ⟨1, _⟩ => rfl
  have e3 : Value.ix8_3 (ix2 p d) = ix2 p (⟨d.val + 1024, by omega⟩ : Fin 2048) := funext fun a => by
    match a with | ⟨0, _⟩ => rfl | ⟨1, _⟩ => rfl
  show FloatOps.addf (FloatOps.mulf (FloatOps.tanh (k0_pay1 P0 P1 P2 P3 P4 P5 (Value.ix8_0 (ix2 p d))))
      (FloatOps.logistic (k0_pay1 P0 P1 P2 P3 P4 P5 (Value.ix8_1 (ix2 p d)))))
      (FloatOps.mulf (P6 (Value.ix8_2 (ix2 p d))) (FloatOps.logistic (k0_pay1 P0 P1 P2 P3 P4 P5 (Value.ix8_3 (ix2 p d)))))
    = cell x h c wx wh bx bh r n
  rw [e0, e1, e2, e3,
    gate_block H p _ r (col n 0) hr (by simp only [col_val]; show _ = 2048 * g + d.val; omega),
    gate_block H p _ r (col n 1) hr (by simp only [col_val]; show _ = 2048 * g + (d.val + 512); omega),
    gate_block H p _ r (col n 2) hr (by simp only [col_val]; show _ = 2048 * g + (d.val + 1024); omega),
    H.cst p d r n hr hn]
  rfl

/-- The point's hidden block at `y` is the new hidden state at the array index over it. -/
theorem hid_block (H : IsPoint x h c wx wh bx bh P0 P1 P2 P3 P4 P5 P6 b g) (y : S256x512.Idx) (i : SX.Idx)
    (hi0 : (i 0).val = 256 * b + (y 0).val) (hi1 : (i 1).val = 512 * g + (y 1).val) :
    Value.E7 P0 P1 P2 P3 P4 P5 P6 y = newHid x h c wx wh bx bh i := by
  obtain ⟨p, d, rfl⟩ : ∃ (p : Fin 256) (d : Fin 512), y = ix2 p d := ⟨y 0, y 1, eq_ix2 y⟩
  obtain ⟨r, n, rfl⟩ : ∃ (r : Fin 8192) (n : Fin 2560), i = ix2 r n := ⟨i 0, i 1, eq_ix2 i⟩
  have hr : r.val = 256 * b + p.val := hi0
  have hn : n.val = 512 * g + d.val := hi1
  have hd : d.val < 512 := d.isLt
  have e0 : Value.ix7_0 (ix2 p d) = ix2 p (⟨d.val, by omega⟩ : Fin 2048) := funext fun a => by
    match a with | ⟨0, _⟩ => rfl | ⟨1, _⟩ => rfl
  have e1 : Value.ix7_1 (ix2 p d) = ix2 p (⟨d.val + 512, by omega⟩ : Fin 2048) := funext fun a => by
    match a with | ⟨0, _⟩ => rfl | ⟨1, _⟩ => rfl
  have e2 : Value.ix7_2 (ix2 p d) = ix2 p d := funext fun a => by
    match a with | ⟨0, _⟩ => rfl | ⟨1, _⟩ => rfl
  have e3 : Value.ix7_3 (ix2 p d) = ix2 p (⟨d.val + 1024, by omega⟩ : Fin 2048) := funext fun a => by
    match a with | ⟨0, _⟩ => rfl | ⟨1, _⟩ => rfl
  have e4 : Value.ix7_4 (ix2 p d) = ix2 p (⟨d.val + 1536, by omega⟩ : Fin 2048) := funext fun a => by
    match a with | ⟨0, _⟩ => rfl | ⟨1, _⟩ => rfl
  show FloatOps.mulf (FloatOps.tanh (FloatOps.addf (FloatOps.mulf (FloatOps.tanh (k0_pay1 P0 P1 P2 P3 P4 P5 (Value.ix7_0 (ix2 p d))))
      (FloatOps.logistic (k0_pay1 P0 P1 P2 P3 P4 P5 (Value.ix7_1 (ix2 p d)))))
      (FloatOps.mulf (P6 (Value.ix7_2 (ix2 p d))) (FloatOps.logistic (k0_pay1 P0 P1 P2 P3 P4 P5 (Value.ix7_3 (ix2 p d)))))))
      (FloatOps.logistic (k0_pay1 P0 P1 P2 P3 P4 P5 (Value.ix7_4 (ix2 p d))))
    = hid x h c wx wh bx bh r n
  rw [e0, e1, e2, e3, e4,
    gate_block H p _ r (col n 0) hr (by simp only [col_val]; show _ = 2048 * g + d.val; omega),
    gate_block H p _ r (col n 1) hr (by simp only [col_val]; show _ = 2048 * g + (d.val + 512); omega),
    gate_block H p _ r (col n 2) hr (by simp only [col_val]; show _ = 2048 * g + (d.val + 1024); omega),
    gate_block H p _ r (col n 3) hr (by simp only [col_val]; show _ = 2048 * g + (d.val + 1536); omega),
    H.cst p d r n hr hn]
  rfl

end

end Cert.KernelIdeal.Block

end
-- ==== Proof.LstmWindows.lean ====
/-
  From blocks to arrays: the two result arrays after the kernel's run are the specification's arrays.

  The grid has 5 × 32 points, the gate group g on the outer axis and the batch tile b on the inner one. At point (g, b)
  the input and hidden-state windows hold row block b (all 2560 columns), the weight and bias windows column block g
  (2048 columns), the cell-state window and both result windows block (b, g) of [256, 512]. The arrays the region finds
  behind the first six windows were written by the host operations before it: the input, the hidden state and the two
  weight matrices narrowed to bf16 — the identity on extended reals — and each bias recast as a [1, 10240] row.
  So each window's block at a point is a block of an argument array (`blk_*`), the point writes back block (b, g) of the
  specification's arrays (`flushed7_eq`, `flushed8_eq`), and the 160 blocks tile [8192, 2560] (`cover7`, `cover8`).
-/
import proofs.«134608_j84550726189464_1_alg».proof.Proof.Gen.KernelIdeal.Value
import proofs.«134608_j84550726189464_1_alg».proof.Proof.LstmSpec
import proofs.«134608_j84550726189464_1_alg».proof.Proof.LstmBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.KernelIdeal.Block Cert.LstmSpec
open Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-! ## The seven argument arrays, and the specification's two arrays of them -/

abbrev aX (c : Dev nD) : SX.Idx → EReal := m ((c : Thread nD τ).loc main_arg0)
abbrev aH (c : Dev nD) : SX.Idx → EReal := m ((c : Thread nD τ).loc main_arg1)
abbrev aC (c : Dev nD) : SX.Idx → EReal := m ((c : Thread nD τ).loc main_arg2)
abbrev aWx (c : Dev nD) : SW.Idx → EReal := m ((c : Thread nD τ).loc main_arg3)
abbrev aWh (c : Dev nD) : SW.Idx → EReal := m ((c : Thread nD τ).loc main_arg4)
abbrev aBx (c : Dev nD) : SB.Idx → EReal := m ((c : Thread nD τ).loc main_arg5)
abbrev aBh (c : Dev nD) : SB.Idx → EReal := m ((c : Thread nD τ).loc main_arg6)

/-- The new hidden state of the launch contents. -/
abbrev H1 (c : Dev nD) : SX.Idx → EReal := newHid (aX m c) (aH m c) (aC m c) (aWx m c) (aWh m c) (aBx m c) (aBh m c)
/-- The new cell state of the launch contents. -/
abbrev C1 (c : Dev nD) : SX.Idx → EReal := newCell (aX m c) (aH m c) (aC m c) (aWx m c) (aWh m c) (aBx m c) (aBh m c)

/-! ## What the region finds behind its windows -/

theorem V_v0 (c : Dev nD) : (V m c main_v0 : S8192x2560.Idx → EReal) = aX m c := by
  dsimp only [V, hostOps0]; after_results; rfl
theorem V_v1 (c : Dev nD) : (V m c main_v1 : S8192x2560.Idx → EReal) = aH m c := by
  dsimp only [V, hostOps0]; after_results; rfl
theorem V_v2 (c : Dev nD) : (V m c main_v2 : S2560x10240.Idx → EReal) = aWx m c := by
  dsimp only [V, hostOps0]; after_results; rfl
theorem V_v3 (c : Dev nD) : (V m c main_v3 : S2560x10240.Idx → EReal) = aWh m c := by
  dsimp only [V, hostOps0]; after_results; rfl
theorem V_v4 (c : Dev nD) : (V m c main_v4 : S1x10240.Idx → EReal) = shapeCast S1x10240 (aBx m c) Facts₀.shapeCasts_S10240_S1x10240 := by
  dsimp only [V, hostOps0]; after_results; rfl
theorem V_v5 (c : Dev nD) : (V m c main_v5 : S1x10240.Idx → EReal) = shapeCast S1x10240 (aBh m c) Facts₀.shapeCasts_S10240_S1x10240 := by
  dsimp only [V, hostOps0]; after_results; rfl

/-- A bias recast as a row, at (0, j). -/
theorem row_apply (v : S10240.Idx → EReal) (y : S1x10240.Idx) (j : Fin 10240) (hj : j.val = (y 1).val) :
    shapeCast S1x10240 v Facts₀.shapeCasts_S10240_S1x10240 y = v (ix1 j) := by
  refine shapeCast_apply v _ y (ix1 j) ?_
  rw [Shape.rowMajor_val_one, Shape.rowMajor_val_two]
  have h0 : (y 0).val < 1 := (y 0).isLt
  show j.val = (y 0).val * 10240 + (y 1).val
  omega

/-! ## The index maps over the grid -/

/-- The printed index maps, decided over the 160 points: every window's block index in terms of the result window's
    (b, g), and the ranges of b and g. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = win0_7.index t (1 : Fin 2)
    ∧ win0_3.index t (0 : Fin 2) = 0 ∧ win0_3.index t (1 : Fin 2) = win0_7.index t (1 : Fin 2)
    ∧ win0_4.index t (0 : Fin 2) = 0 ∧ win0_4.index t (1 : Fin 2) = win0_7.index t (1 : Fin 2)
    ∧ win0_5.index t (0 : Fin 2) = 0 ∧ win0_5.index t (1 : Fin 2) = win0_7.index t (1 : Fin 2)
    ∧ win0_6.index t (0 : Fin 2) = win0_7.index t (0 : Fin 2) ∧ win0_6.index t (1 : Fin 2) = win0_7.index t (1 : Fin 2)
    ∧ win0_8.index t (0 : Fin 2) = win0_7.index t (0 : Fin 2) ∧ win0_8.index t (1 : Fin 2) = win0_7.index t (1 : Fin 2)
    ∧ win0_7.index t (0 : Fin 2) ≤ 31 ∧ win0_7.index t (1 : Fin 2) ≤ 4 :=
  (by decide +kernel : ∀ t : Fin grid0.N, _)

/-- Every block (b, g) is some point's. -/
theorem idx_onto : ∀ (b : Fin 32) (g : Fin 5), ∃ t : Fin cfg0.N, win0_7.index t = ![b.val, g.val] :=
  (by decide +kernel : ∀ (b : Fin 32) (g : Fin 5), ∃ t : Fin grid0.N, win0_7.index t = ![b.val, g.val])

/-! ## Each window's block at a point is a block of an argument array -/

theorem blk_inp (c : Dev nD) (t : Fin cfg0.N) (p : Fin 256) (k : Fin 2560) (r : Fin 8192)
    (hr : r.val = 256 * win0_7.index t (0 : Fin 2) + p.val) :
    ((View.ld (iblk m c 0 t) r0_0 : Vec Ideal S256x2560 .bf16) (ix2 p k) : EReal) = aX m c (ix2 r k) := by
  obtain ⟨e00, e01, -⟩ := idx_facts t
  rw [View.ld_unit_zero (S := S256x2560) hz]
  show (V m c main_v0 : S8192x2560.Idx → EReal) (((cfg0.win 0).blk t).view.emb (ix2 p k)) = _
  rw [V_v0]
  congr 1
  funext a
  apply Fin.ext
  match a with
  | ⟨0, _⟩ => show win0_0.index t (0 : Fin 2) * 256 + 1 * p.val = r.val; omega
  | ⟨1, _⟩ => show win0_0.index t (1 : Fin 2) * 2560 + 1 * k.val = k.val; omega

theorem blk_hst (c : Dev nD) (t : Fin cfg0.N) (p : Fin 256) (k : Fin 2560) (r : Fin 8192)
    (hr : r.val = 256 * win0_7.index t (0 : Fin 2) + p.val) :
    ((View.ld (iblk m c 1 t) r0_0 : Vec Ideal S256x2560 .bf16) (ix2 p k) : EReal) = aH m c (ix2 r k) := by
  obtain ⟨-, -, e10, e11, -⟩ := idx_facts t
  rw [View.ld_unit_zero (S := S256x2560) hz]
  show (V m c main_v1 : S8192x2560.Idx → EReal) (((cfg0.win 1).blk t).view.emb (ix2 p k)) = _
  rw [V_v1]
  congr 1
  funext a
  apply Fin.ext
  match a with
  | ⟨0, _⟩ => show win0_1.index t (0 : Fin 2) * 256 + 1 * p.val = r.val; omega
  | ⟨1, _⟩ => show win0_1.index t (1 : Fin 2) * 2560 + 1 * k.val = k.val; omega

theorem blk_wih (c : Dev nD) (t : Fin cfg0.N) (k : Fin 2560) (q : Fin 2048) (j : Fin 10240)
    (hj : j.val = 2048 * win0_7.index t (1 : Fin 2) + q.val) :
    ((View.ld (iblk m c 2 t) r0_1 : Vec Ideal S2560x2048 .bf16) (ix2 k q) : EReal) = aWx m c (ix2 k j) := by
  obtain ⟨-, -, -, -, e20, e21, -⟩ := idx_facts t
  rw [View.ld_unit_zero (S := S2560x2048) hz]
  show (V m c main_v2 : S2560x10240.Idx → EReal) (((cfg0.win 2).blk t).view.emb (ix2 k q)) = _
  rw [V_v2]
  congr 1
  funext a
  apply Fin.ext
  match a with
  | ⟨0, _⟩ => show win0_2.index t (0 : Fin 2) * 2560 + 1 * k.val = k.val; omega
  | ⟨1, _⟩ => show win0_2.index t (1 : Fin 2) * 2048 + 1 * q.val = j.val; omega

theorem blk_whh (c : Dev nD) (t : Fin cfg0.N) (k : Fin 2560) (q : Fin 2048) (j : Fin 10240)
    (hj : j.val = 2048 * win0_7.index t (1 : Fin 2) + q.val) :
    ((View.ld (iblk m c 3 t) r0_1 : Vec Ideal S2560x2048 .bf16) (ix2 k q) : EReal) = aWh m c (ix2 k j) := by
  obtain ⟨-, -, -, -, -, -, e30, e31, -⟩ := idx_facts t
  rw [View.ld_unit_zero (S := S2560x2048) hz]
  show (V m c main_v3 : S2560x10240.Idx → EReal) (((cfg0.win 3).blk t).view.emb (ix2 k q)) = _
  rw [V_v3]
  congr 1
  funext a
  apply Fin.ext
  match a with
  | ⟨0, _⟩ => show win0_3.index t (0 : Fin 2) * 2560 + 1 * k.val = k.val; omega
  | ⟨1, _⟩ => show win0_3.index t (1 : Fin 2) * 2048 + 1 * q.val = j.val; omega

theorem blk_bih (c : Dev nD) (t : Fin cfg0.N) (q : Fin 2048) (j : Fin 10240)
    (hj : j.val = 2048 * win0_7.index t (1 : Fin 2) + q.val) :
    ((View.ld (iblk m c 4 t) r0_2 : Vec Ideal S1x2048 .f32) (ix2 (0 : Fin 1) q) : EReal) = aBx m c (ix1 j) := by
  obtain ⟨-, -, -, -, -, -, -, -, e40, e41, -⟩ := idx_facts t
  rw [View.ld_unit_zero (S := S1x2048) hz]
  show (V m c main_v4 : S1x10240.Idx → EReal) (((cfg0.win 4).blk t).view.emb (ix2 (0 : Fin 1) q)) = _
  rw [V_v4]
  refine row_apply _ _ j ?_
  show j.val = win0_4.index t (1 : Fin 2) * 2048 + 1 * q.val
  omega

theorem blk_bhh (c : Dev nD) (t : Fin cfg0.N) (q : Fin 2048) (j : Fin 10240)
    (hj : j.val = 2048 * win0_7.index t (1 : Fin 2) + q.val) :
    ((View.ld (iblk m c 5 t) r0_2 : Vec Ideal S1x2048 .f32) (ix2 (0 : Fin 1) q) : EReal) = aBh m c (ix1 j) := by
  obtain ⟨-, -, -, -, -, -, -, -, -, -, e50, e51, -⟩ := idx_facts t
  rw [View.ld_unit_zero (S := S1x2048) hz]
  show (V m c main_v5 : S1x10240.Idx → EReal) (((cfg0.win 5).blk t).view.emb (ix2 (0 : Fin 1) q)) = _
  rw [V_v5]
  refine row_apply _ _ j ?_
  show j.val = win0_5.index t (1 : Fin 2) * 2048 + 1 * q.val
  omega

theorem blk_cst (c : Dev nD) (t : Fin cfg0.N) (p : Fin 256) (d : Fin 512) (r : Fin 8192) (n : Fin 2560)
    (hr : r.val = 256 * win0_7.index t (0 : Fin 2) + p.val) (hn : n.val = 512 * win0_7.index t (1 : Fin 2) + d.val) :
    ((View.ld (iblk m c 6 t) r0_3 : Vec Ideal S256x512 .f32) (ix2 p d) : EReal) = aC m c (ix2 r n) := by
  obtain ⟨-, -, -, -, -, -, -, -, -, -, -, -, e60, e61, -⟩ := idx_facts t
  rw [View.ld_unit_zero (S := S256x512) hz]
  show (V m c main_arg2 : S8192x2560.Idx → EReal) (((cfg0.win 6).blk t).view.emb (ix2 p d)) = _
  rw [V_main_arg2]
  congr 1
  funext a
  apply Fin.ext
  match a with
  | ⟨0, _⟩ => show win0_6.index t (0 : Fin 2) * 256 + 1 * p.val = r.val; omega
  | ⟨1, _⟩ => show win0_6.index t (1 : Fin 2) * 512 + 1 * d.val = n.val; omega

/-- At point `t` the body's loads are the argument arrays' blocks at batch tile and gate group `t`'s result block names. -/
theorem isPoint (c : Dev nD) (t : Fin cfg0.N) :
    IsPoint (aX m c) (aH m c) (aC m c) (aWx m c) (aWh m c) (aBx m c) (aBh m c)
      (View.ld (iblk m c 0 t) r0_0) (View.ld (iblk m c 2 t) r0_1) (View.ld (iblk m c 1 t) r0_0) (View.ld (iblk m c 3 t) r0_1)
      (View.ld (iblk m c 4 t) r0_2) (View.ld (iblk m c 5 t) r0_2) (View.ld (iblk m c 6 t) r0_3)
      (win0_7.index t (0 : Fin 2)) (win0_7.index t (1 : Fin 2)) where
  inp := blk_inp m c t
  wih := blk_wih m c t
  hst := blk_hst m c t
  whh := blk_whh m c t
  bih := blk_bih m c t
  bhh := blk_bhh m c t
  cst := blk_cst m c t

/-! ## What each point writes back -/

/-- Point `t` writes back block `t` of the new hidden state. -/
theorem flushed7_eq (c : Dev nD) (t : Fin cfg0.N) :
    (dats m 0 c).flushed 7 t = ((cfg0.win 7).blk t).view.read (Elt Ideal) (H1 m c) := by
  rw [flushed7]
  unfold out0_7
  funext y
  show View.canon ([⟨r0_3, k0_pay3 (View.ld (iblk m c 0 t) r0_0) (View.ld (iblk m c 2 t) r0_1) (View.ld (iblk m c 1 t) r0_0)
      (View.ld (iblk m c 3 t) r0_1) (View.ld (iblk m c 4 t) r0_2) (View.ld (iblk m c 5 t) r0_2) (View.ld (iblk m c 6 t) r0_3)⟩] :
      List (View.Piece (Elt Ideal) S256x512 .f32)) y
    = H1 m c (((cfg0.win 7).blk t).view.emb y)
  refine (canon7_eq (View.ld (iblk m c 0 t) r0_0) (View.ld (iblk m c 2 t) r0_1) (View.ld (iblk m c 1 t) r0_0)
      (View.ld (iblk m c 3 t) r0_1) (View.ld (iblk m c 4 t) r0_2) (View.ld (iblk m c 5 t) r0_2) (View.ld (iblk m c 6 t) r0_3) y).trans ?_
  refine hid_block (isPoint m c t) y _ ?_ ?_
  · show win0_7.index t (0 : Fin 2) * 256 + 1 * (y 0).val = 256 * win0_7.index t (0 : Fin 2) + (y 0).val; omega
  · show win0_7.index t (1 : Fin 2) * 512 + 1 * (y 1).val = 512 * win0_7.index t (1 : Fin 2) + (y 1).val; omega

/-- Point `t` writes back block `t` of the new cell state. -/
theorem flushed8_eq (c : Dev nD) (t : Fin cfg0.N) :
    (dats m 0 c).flushed 8 t = ((cfg0.win 8).blk t).view.read (Elt Ideal) (C1 m c) := by
  obtain ⟨-, -, -, -, -, -, -, -, -, -, -, -, -, -, e80, e81, -⟩ := idx_facts t
  rw [flushed8]
  unfold out0_8
  funext y
  show View.canon ([⟨r0_3, k0_pay2 (View.ld (iblk m c 0 t) r0_0) (View.ld (iblk m c 2 t) r0_1) (View.ld (iblk m c 1 t) r0_0)
      (View.ld (iblk m c 3 t) r0_1) (View.ld (iblk m c 4 t) r0_2) (View.ld (iblk m c 5 t) r0_2) (View.ld (iblk m c 6 t) r0_3)⟩] :
      List (View.Piece (Elt Ideal) S256x512 .f32)) y
    = C1 m c (((cfg0.win 8).blk t).view.emb y)
  refine (canon8_eq (View.ld (iblk m c 0 t) r0_0) (View.ld (iblk m c 2 t) r0_1) (View.ld (iblk m c 1 t) r0_0)
      (View.ld (iblk m c 3 t) r0_1) (View.ld (iblk m c 4 t) r0_2) (View.ld (iblk m c 5 t) r0_2) (View.ld (iblk m c 6 t) r0_3) y).trans ?_
  refine cell_block (isPoint m c t) y _ ?_ ?_
  · show win0_8.index t (0 : Fin 2) * 256 + 1 * (y 0).val = 256 * win0_7.index t (0 : Fin 2) + (y 0).val; omega
  · show win0_8.index t (1 : Fin 2) * 512 + 1 * (y 1).val = 512 * win0_7.index t (1 : Fin 2) + (y 1).val; omega

/-! ## The blocks tile the arrays -/

theorem mem_blk7 (t : Fin cfg0.N) (i : S8192x2560.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v6_0).slice (win0_7.rect t)).set ↔ _
  rw [View.set_slice_whole, Rect.mem_set_unit]
  exact Iff.rfl

theorem mem_blk8 (t : Fin cfg0.N) (i : S8192x2560.Idx) :
    i ∈ ((cfg0.win 8).blk t).view.set ↔ ∀ a : Fin 2, win0_8.index t a * S256x512.size a ≤ (i a).val ∧ (i a).val < win0_8.index t a * S256x512.size a + S256x512.size a := by
  show i ∈ ((View.whole main_v6_1).slice (win0_8.rect t)).set ↔ _
  rw [View.set_slice_whole, Rect.mem_set_unit]
  exact Iff.rfl

/-- Index (r, n) lies in the block of the point with b = r / 256, g = n / 512. -/
theorem cover7 (i : S8192x2560.Idx) : ∃ t : Fin cfg0.N, (cfg0.win 7).flush t = true ∧ i ∈ ((cfg0.win 7).blk t).view.set := by
  have hi0 : (i 0).val < 8192 := (i 0).isLt
  have hi1 : (i 1).val < 2560 := (i 1).isLt
  obtain ⟨t, ht⟩ := idx_onto ⟨(i 0).val / 256, by omega⟩ ⟨(i 1).val / 512, by omega⟩
  have q0 : win0_7.index t (0 : Fin 2) = (i 0).val / 256 := congrFun ht 0
  have q1 : win0_7.index t (1 : Fin 2) = (i 1).val / 512 := congrFun ht 1
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 512 ≤ (i 1).val ∧ (i 1).val < win0_7.index t (1 : Fin 2) * 512 + 512; omega

theorem cover8 (i : S8192x2560.Idx) : ∃ t : Fin cfg0.N, (cfg0.win 8).flush t = true ∧ i ∈ ((cfg0.win 8).blk t).view.set := by
  have hi0 : (i 0).val < 8192 := (i 0).isLt
  have hi1 : (i 1).val < 2560 := (i 1).isLt
  obtain ⟨t, ht⟩ := idx_onto ⟨(i 0).val / 256, by omega⟩ ⟨(i 1).val / 512, by omega⟩
  obtain ⟨-, -, -, -, -, -, -, -, -, -, -, -, -, -, e80, e81, -⟩ := idx_facts t
  have q0 : win0_7.index t (0 : Fin 2) = (i 0).val / 256 := congrFun ht 0
  have q1 : win0_7.index t (1 : Fin 2) = (i 1).val / 512 := congrFun ht 1
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 512 ≤ (i 1).val ∧ (i 1).val < win0_8.index t (1 : Fin 2) * 512 + 512; omega

/-! ## The arrays after the run, and the run -/

theorem final7 (c : Dev nD) : (dats m 0 c).arrAt 7 cfg0.N = H1 m c :=
  (dats m 0 c).arrAt_eq_of_cover 7 (H1 m c) (fun t _ => flushed7_eq m c t) cover7

theorem final8 (c : Dev nD) : (dats m 0 c).arrAt 8 cfg0.N = C1 m c :=
  (dats m 0 c).arrAt_eq_of_cover 8 (C1 m c) (fun t _ => flushed8_eq m c t) cover8

/-- Every weakly fair execution of the kernel program terminates with the two result arrays at the specification's new
    hidden and cell states of the launch contents, the arguments unchanged. -/
theorem run : θ_run defs (onTc (τ := τ) (main (F := Ideal))) ⟨m, fun _ => 0, ρ⟩ fun r => ∀ c : Dev nD,
      r.2.mem ((c : Thread nD τ).loc main_v6_0) = H1 m c
      ∧ r.2.mem ((c : Thread nD τ).loc main_v6_1) = C1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (run_blocks m ρ)

end Cert.KernelIdeal.Hand

end
-- ==== Proof.RefSide.lean ====
/-
  The reference program's two results are the specification's new hidden state and new cell state.

  The reference computes the gate array as ((x·W_x + b_x) + h·W_h) + b_h, cuts it into five groups of 2048 columns,
  each group into four runs of 512 (candidate | input | forget | output), forms per group
      c' = tanh(candidate) · σ(input) + c · σ(forget),   h' = tanh(c') · σ(output),
  with σ spelled 1 / (1 + e^(-t)), and concatenates the five c' (and the five h') along the columns. Read index by
  index this is the specification's `cell` and `hid`: column n = 512·g + d of the result is piece g at d, and run s of
  group g at d is gate column 2048·g + 512·s + d.
-/
import proofs.«134608_j84550726189464_1_alg».proof.Proof.Gen.ReferenceIdeal.Run
import proofs.«134608_j84550726189464_1_alg».proof.Proof.LstmSpec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx
open scoped BigOperators

/-! ## The gate array at an index -/

/-- The matrix product's dimension numbers: rows × contraction times contraction × columns. -/
abbrev D : DotDims S8192x2560 S2560x10240 S8192x10240 := dot_S8192x2560_S2560x10240_S8192x10240_1_0_0_1_n_n

theorem lhs_0 (i : S8192x10240.Idx) (q : D.contr.Idx) : (D.lhsIdx i q 0).val = (i 0).val := by
  unfold DotDims.lhsIdx
  rw [dif_neg (show ¬(0 : Fin S8192x2560.rank) ∈ D.lhsBatch by decide), dif_pos (show (0 : Fin S8192x2560.rank) ∈ D.lhsNonContracting by decide)]
  rfl

theorem lhs_1 (i : S8192x10240.Idx) (q : D.contr.Idx) : (D.lhsIdx i q 1).val = (q ⟨0, by decide⟩).val :=
  D.lhsIdx_val_of_single rfl i q

theorem rhs_0 (i : S8192x10240.Idx) (q : D.contr.Idx) : (D.rhsIdx i q 0).val = (q ⟨0, by decide⟩).val :=
  D.rhsIdx_val_of_single rfl i q

theorem rhs_1 (i : S8192x10240.Idx) (q : D.contr.Idx) : (D.rhsIdx i q 1).val = (i 1).val := by
  unfold DotDims.rhsIdx
  rw [dif_neg (show ¬(1 : Fin S2560x10240.rank) ∈ D.rhsBatch by decide), dif_pos (show (1 : Fin S2560x10240.rank) ∈ D.rhsNonContracting by decide)]
  rfl

/-- The host's matrix product at (r, j) is the sum over k of a[r,k]·w[k,j]. -/
theorem dot_apply (a : S8192x2560.Idx → EReal) (w : S2560x10240.Idx → EReal) (r : Fin 8192) (j : Fin 10240) :
    Host.dotGeneral (F := Ideal) (φ₁ := .f32) (φ₂ := .f32) D none a w (ix2 r j) = ∑ k : Fin 2560, a (ix2 r k) * w (ix2 k j) := by
  simp only [Host.dotGeneral]
  rw [Ideal.dotGeneral_apply, ← Equiv.sum_comp (contrEquiv1 D 2560 rfl rfl).symm]
  refine Finset.sum_congr rfl fun k _ => ?_
  have hk := contrEquiv1_symm_val D 2560 rfl rfl k
  have el : D.lhsIdx (ix2 r j) ((contrEquiv1 D 2560 rfl rfl).symm k) = ix2 r k := funext fun ax => Fin.ext (by
    match ax with
    | ⟨0, _⟩ => exact lhs_0 _ _
    | ⟨1, _⟩ => exact (lhs_1 _ _).trans hk)
  have er : D.rhsIdx (ix2 r j) ((contrEquiv1 D 2560 rfl rfl).symm k) = ix2 k j := funext fun ax => Fin.ext (by
    match ax with
    | ⟨0, _⟩ => exact (rhs_0 _ _).trans hk
    | ⟨1, _⟩ => exact rhs_1 _ _)
  rw [el, er]

/-- A bias vector broadcast to a row and then to every row reads, at (r, j), the bias at j. -/
theorem bias_apply (b : S10240.Idx → EReal) (r : Fin 8192) (j : Fin 10240) :
    broadcastInDim S8192x10240 ![0, 1] bcast_S1x10240_S8192x10240_0_1 (broadcastInDim S1x10240 ![1] bcast_S10240_S1x10240_1 b) (ix2 r j) = b (ix1 j) := by
  rw [broadcastInDim_apply _ _ _ (ix2 r j) (ix2 (0 : Fin 1) j) (fun ax => by
    match ax with
    | ⟨0, _⟩ => rfl
    | ⟨1, _⟩ => rfl)]
  exact broadcastInDim_apply _ _ _ (ix2 (0 : Fin 1) j) (ix1 j) (fun ax => by
    match ax with
    | ⟨0, _⟩ => rfl)

/-- The reference's gate array at (r, j) is the specification's gate pre-activation. -/
theorem gate_ref (V0 : Valuation τ sig (Elt Ideal)) (r : Fin 8192) (j : Fin 10240) :
    res_main_v8 V0 (ix2 r j)
      = Cert.LstmSpec.gate (V0 (Proc.devRef .tc main_arg0)) (V0 (Proc.devRef .tc main_arg1))
          (V0 (Proc.devRef .tc main_arg3)) (V0 (Proc.devRef .tc main_arg4))
          (V0 (Proc.devRef .tc main_arg5)) (V0 (Proc.devRef .tc main_arg6)) r j := by
  unfold res_main_v8 Cert.LstmSpec.gate
  rw [addf_apply, addf_apply, addf_apply, bias_apply, bias_apply]
  rw [show Host.dotGeneral dot_S8192x2560_S2560x10240_S8192x10240_1_0_0_1_n_n none (V0 (Proc.devRef .tc main_arg0)) (V0 (Proc.devRef .tc main_arg3)) (ix2 r j) = _ from dot_apply _ _ r j,
    show Host.dotGeneral dot_S8192x2560_S2560x10240_S8192x10240_1_0_0_1_n_n none (V0 (Proc.devRef .tc main_arg1)) (V0 (Proc.devRef .tc main_arg4)) (ix2 r j) = _ from dot_apply _ _ r j]
  exact Cert.LstmSpec.add4_regroup _ _ _ _

/-! ## One group's cell and hidden runs at an index -/

/-- The constant one broadcast to a run's shape reads one everywhere. -/
theorem one_apply (i : S8192x512.Idx) :
    broadcastInDim S8192x512 ![] bcast_S_S8192x512 (constant (F := Ideal) S_ .f32 0x3F800000#32) i = (1 : EReal) := by
  rw [broadcastInDim_scalar_apply, constant_apply, Ideal.ofBits_one_f32]

/-- The host's tanh at an index. -/
theorem htanh_apply (A : S8192x512.Idx → EReal) (i : S8192x512.Idx) :
    Host.tanh (F := Ideal) (φ := .f32) A i = Ideal.tanh (A i) := rfl

/-- 1 / (1 + e^(-A)) at an index is the logistic function of A there. -/
theorem sig_apply (A : S8192x512.Idx → EReal) (i : S8192x512.Idx) :
    Host.divf (F := Ideal) (φ := .f32) (broadcastInDim S8192x512 ![] bcast_S_S8192x512 (constant S_ .f32 0x3F800000#32))
      (addf (broadcastInDim S8192x512 ![] bcast_S_S8192x512 (constant S_ .f32 0x3F800000#32)) (Host.exp (Host.negf A))) i
      = Ideal.logistic (A i) := by
  show Ideal.div (broadcastInDim S8192x512 ![] bcast_S_S8192x512 (constant (F := Ideal) S_ .f32 0x3F800000#32) i)
      (broadcastInDim S8192x512 ![] bcast_S_S8192x512 (constant (F := Ideal) S_ .f32 0x3F800000#32) i + Ideal.exp (-(A i))) = _
  rw [one_apply]
  exact Cert.LstmSpec.logistic_eq _

/-- The run at inner offset p of the group cut at column o, read at (r, d), is the gate array at column o + (p + d). -/
theorem run_apply (G : S8192x10240.Idx → EReal) (o p : Nat) (hS : S8192x10240.Slices ![0, o] S8192x2048)
    (hp : S8192x2048.Slices ![0, p] S8192x512) (r : Fin 8192) (d : Fin 512) (k : Fin 10240) (hk : k.val = o + (p + d.val)) :
    extractStridedSlice S8192x512 ![0, p] (extractStridedSlice S8192x2048 ![0, o] G hS) hp (ix2 r d) = G (ix2 r k) := by
  rw [slice2_axis1_eq p _ hp r d]
  exact slice2_axis1_apply o G hS r _ k hk

/-- One group's new cell run at (r, d): tanh(candidate)·σ(input) + c·σ(forget), each read from the gate array. -/
theorem cell_run (G : S8192x10240.Idx → EReal) (Cst : S8192x2560.Idx → EReal) (o oc : Nat)
    (hS : S8192x10240.Slices ![0, o] S8192x2048) (hC : S8192x2560.Slices ![0, oc] S8192x512)
    (r : Fin 8192) (d : Fin 512) (k0 k1 k2 : Fin 10240) (kc : Fin 2560)
    (h0 : k0.val = o + (0 + d.val)) (h1 : k1.val = o + (512 + d.val)) (h2 : k2.val = o + (1024 + d.val))
    (hc : kc.val = oc + d.val) :
    (addf (F := Ideal) (mulf (Host.tanh (extractStridedSlice S8192x512 ![0, 0] (extractStridedSlice S8192x2048 ![0, o] G hS) slices_S8192x2048_S8192x512_0_0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 512] (extractStridedSlice S8192x2048 ![0, o] G hS) slices_S8192x2048_S8192x512_0_512)))))) (mulf (extractStridedSlice S8192x512 ![0, oc] Cst hC) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1024] (extractStridedSlice S8192x2048 ![0, o] G hS) slices_S8192x2048_S8192x512_0_1024))))))) (ix2 r d)
      = Ideal.tanh (G (ix2 r k0)) * Ideal.logistic (G (ix2 r k1)) + Cst (ix2 r kc) * Ideal.logistic (G (ix2 r k2)) := by
  rw [addf_apply, mulf_apply, mulf_apply, htanh_apply, sig_apply, sig_apply,
    run_apply G o 0 hS _ r d k0 h0, run_apply G o 512 hS _ r d k1 h1, run_apply G o 1024 hS _ r d k2 h2,
    slice2_axis1_apply oc Cst hC r d kc hc]

/-- One group's new hidden run at (r, d): tanh of the new cell times σ(output). -/
theorem hid_run (G : S8192x10240.Idx → EReal) (Cn : S8192x512.Idx → EReal) (o : Nat)
    (hS : S8192x10240.Slices ![0, o] S8192x2048) (r : Fin 8192) (d : Fin 512) (k3 : Fin 10240)
    (h3 : k3.val = o + (1536 + d.val)) :
    (mulf (F := Ideal) (Host.tanh Cn) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (extractStridedSlice S8192x2048 ![0, o] G hS) slices_S8192x2048_S8192x512_0_1536)))))) (ix2 r d)
      = Ideal.tanh (Cn (ix2 r d)) * Ideal.logistic (G (ix2 r k3)) := by
  rw [mulf_apply, htanh_apply, sig_apply, run_apply G o 1536 hS _ r d k3 h3]

/-! ## The five groups -/

/-- The specification's gate pre-activation of the reference's arguments. -/
abbrev specGate (V0 : Valuation τ sig (Elt Ideal)) (r : Fin 8192) (j : Fin 10240) : EReal :=
  Cert.LstmSpec.gate (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) r j

/-- The specification's new cell state of the reference's arguments. -/
abbrev specCell (V0 : Valuation τ sig (Elt Ideal)) (r : Fin 8192) (n : Fin 2560) : EReal :=
  Cert.LstmSpec.cell (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) r n

/-- The specification's new hidden state of the reference's arguments. -/
abbrev specHid (V0 : Valuation τ sig (Elt Ideal)) (r : Fin 8192) (n : Fin 2560) : EReal :=
  Cert.LstmSpec.hid (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) r n

/-- Hidden column 512·g + d. -/
abbrev hcol (g : Fin 5) (d : Fin 512) : Fin 2560 := ⟨512 * g.val + d.val, by have := g.isLt; have := d.isLt; omega⟩

/-- Piece g of the new cell state: hidden columns 512·g … 512·g + 511. -/
def cellPiece (V0 : Valuation τ sig (Elt Ideal)) (g : Fin 5) : S8192x512.Idx → EReal :=
  fun i => specCell V0 (i 0) (hcol g (i 1))

/-- Piece g of the new hidden state. -/
def hidPiece (V0 : Valuation τ sig (Elt Ideal)) (g : Fin 5) : S8192x512.Idx → EReal :=
  fun i => specHid V0 (i 0) (hcol g (i 1))

/-- Run s of group g at d is gate column 2048·g + 512·s + d. -/
theorem col_hcol (g : Fin 5) (d : Fin 512) (s : Fin 4) (p : Nat) (hp : 512 * s.val = p) :
    (Cert.LstmSpec.col (hcol g d) s).val = 2048 * g.val + (p + d.val) := by
  have hg := g.isLt
  have hd := d.isLt
  rw [Cert.LstmSpec.col_val, ← hp]
  show 2048 * ((512 * g.val + d.val) / 512) + 512 * s.val + (512 * g.val + d.val) % 512 = _
  omega

/-- Group g's new cell run is piece g of the specification's new cell state. -/
theorem cell_group (V0 : Valuation τ sig (Elt Ideal)) (g : Fin 5) (o oc : Nat) (ho : o = 2048 * g.val) (hoc : oc = 512 * g.val)
    (hS : S8192x10240.Slices ![0, o] S8192x2048) (hC : S8192x2560.Slices ![0, oc] S8192x512) (r : Fin 8192) (d : Fin 512) :
    (addf (F := Ideal) (mulf (Host.tanh (extractStridedSlice S8192x512 ![0, 0] (extractStridedSlice S8192x2048 ![0, o] (res_main_v8 V0) hS) slices_S8192x2048_S8192x512_0_0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 512] (extractStridedSlice S8192x2048 ![0, o] (res_main_v8 V0) hS) slices_S8192x2048_S8192x512_0_512)))))) (mulf (extractStridedSlice S8192x512 ![0, oc] (V0 (Proc.devRef .tc main_arg2)) hC) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1024] (extractStridedSlice S8192x2048 ![0, o] (res_main_v8 V0) hS) slices_S8192x2048_S8192x512_0_1024))))))) (ix2 r d) = cellPiece V0 g (ix2 r d) := by
  subst ho hoc
  refine (cell_run (res_main_v8 V0) (V0 (Proc.devRef .tc main_arg2)) _ _ hS hC r d
    (Cert.LstmSpec.col (hcol g d) 0) (Cert.LstmSpec.col (hcol g d) 1) (Cert.LstmSpec.col (hcol g d) 2) (hcol g d)
    (col_hcol g d 0 0 rfl) (col_hcol g d 1 512 rfl) (col_hcol g d 2 1024 rfl) rfl).trans ?_
  rw [gate_ref, gate_ref, gate_ref]
  rfl

/-- Group g's new hidden run, over a cell run that is piece g, is piece g of the specification's new hidden state. -/
theorem hid_group (V0 : Valuation τ sig (Elt Ideal)) (g : Fin 5) (o : Nat) (ho : o = 2048 * g.val)
    (hS : S8192x10240.Slices ![0, o] S8192x2048) (Cn : S8192x512.Idx → EReal) (hCn : Cn = cellPiece V0 g) (r : Fin 8192) (d : Fin 512) :
    (mulf (F := Ideal) (Host.tanh Cn) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (extractStridedSlice S8192x2048 ![0, o] (res_main_v8 V0) hS) slices_S8192x2048_S8192x512_0_1536)))))) (ix2 r d) = hidPiece V0 g (ix2 r d) := by
  subst ho hCn
  refine (hid_run (res_main_v8 V0) (cellPiece V0 g) _ hS r d (Cert.LstmSpec.col (hcol g d) 3) (col_hcol g d 3 1536 rfl)).trans ?_
  rw [gate_ref]
  rfl

/-! ## The pieces, and the concatenation at an index -/

/-- Group 0's new cell run is piece 0 of the new cell state. -/
theorem piece_cell_0 (V0 : Valuation τ sig (Elt Ideal)) : res_main_v30 V0 = cellPiece V0 0 := by
  funext i
  obtain ⟨r, d, rfl⟩ : ∃ (r : Fin 8192) (d : Fin 512), i = ix2 r d := ⟨i 0, i 1, eq_ix2 i⟩
  unfold res_main_v30 res_main_v9
  exact cell_group V0 0 0 0 rfl rfl _ _ r d

/-- Group 0's new hidden run is piece 0 of the new hidden state. -/
theorem piece_hid_0 (V0 : Valuation τ sig (Elt Ideal)) :
    (mulf (Host.tanh (res_main_v30 V0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (res_main_v9 V0) slices_S8192x2048_S8192x512_0_1536)))))) = hidPiece V0 0 := by
  funext i
  obtain ⟨r, d, rfl⟩ : ∃ (r : Fin 8192) (d : Fin 512), i = ix2 r d := ⟨i 0, i 1, eq_ix2 i⟩
  unfold res_main_v9
  exact hid_group V0 0 0 rfl _ (res_main_v30 V0) (piece_cell_0 V0) r d

/-- Group 1's new cell run is piece 1 of the new cell state. -/
theorem piece_cell_1 (V0 : Valuation τ sig (Elt Ideal)) : res_main_v60 V0 = cellPiece V0 1 := by
  funext i
  obtain ⟨r, d, rfl⟩ : ∃ (r : Fin 8192) (d : Fin 512), i = ix2 r d := ⟨i 0, i 1, eq_ix2 i⟩
  unfold res_main_v60 res_main_v39
  exact cell_group V0 1 2048 512 rfl rfl _ _ r d

/-- Group 1's new hidden run is piece 1 of the new hidden state. -/
theorem piece_hid_1 (V0 : Valuation τ sig (Elt Ideal)) :
    (mulf (Host.tanh (res_main_v60 V0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (res_main_v39 V0) slices_S8192x2048_S8192x512_0_1536)))))) = hidPiece V0 1 := by
  funext i
  obtain ⟨r, d, rfl⟩ : ∃ (r : Fin 8192) (d : Fin 512), i = ix2 r d := ⟨i 0, i 1, eq_ix2 i⟩
  unfold res_main_v39
  exact hid_group V0 1 2048 rfl _ (res_main_v60 V0) (piece_cell_1 V0) r d

/-- Group 2's new cell run is piece 2 of the new cell state. -/
theorem piece_cell_2 (V0 : Valuation τ sig (Elt Ideal)) : res_main_v90 V0 = cellPiece V0 2 := by
  funext i
  obtain ⟨r, d, rfl⟩ : ∃ (r : Fin 8192) (d : Fin 512), i = ix2 r d := ⟨i 0, i 1, eq_ix2 i⟩
  unfold res_main_v90 res_main_v69
  exact cell_group V0 2 4096 1024 rfl rfl _ _ r d

/-- Group 2's new hidden run is piece 2 of the new hidden state. -/
theorem piece_hid_2 (V0 : Valuation τ sig (Elt Ideal)) :
    (mulf (Host.tanh (res_main_v90 V0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (res_main_v69 V0) slices_S8192x2048_S8192x512_0_1536)))))) = hidPiece V0 2 := by
  funext i
  obtain ⟨r, d, rfl⟩ : ∃ (r : Fin 8192) (d : Fin 512), i = ix2 r d := ⟨i 0, i 1, eq_ix2 i⟩
  unfold res_main_v69
  exact hid_group V0 2 4096 rfl _ (res_main_v90 V0) (piece_cell_2 V0) r d

/-- Group 3's new cell run is piece 3 of the new cell state. -/
theorem piece_cell_3 (V0 : Valuation τ sig (Elt Ideal)) : res_main_v120 V0 = cellPiece V0 3 := by
  funext i
  obtain ⟨r, d, rfl⟩ : ∃ (r : Fin 8192) (d : Fin 512), i = ix2 r d := ⟨i 0, i 1, eq_ix2 i⟩
  unfold res_main_v120 res_main_v99
  exact cell_group V0 3 6144 1536 rfl rfl _ _ r d

/-- Group 3's new hidden run is piece 3 of the new hidden state. -/
theorem piece_hid_3 (V0 : Valuation τ sig (Elt Ideal)) :
    (mulf (Host.tanh (res_main_v120 V0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (res_main_v99 V0) slices_S8192x2048_S8192x512_0_1536)))))) = hidPiece V0 3 := by
  funext i
  obtain ⟨r, d, rfl⟩ : ∃ (r : Fin 8192) (d : Fin 512), i = ix2 r d := ⟨i 0, i 1, eq_ix2 i⟩
  unfold res_main_v99
  exact hid_group V0 3 6144 rfl _ (res_main_v120 V0) (piece_cell_3 V0) r d

/-- Group 4's new cell run is piece 4 of the new cell state. -/
theorem piece_cell_4 (V0 : Valuation τ sig (Elt Ideal)) : res_main_v150 V0 = cellPiece V0 4 := by
  funext i
  obtain ⟨r, d, rfl⟩ : ∃ (r : Fin 8192) (d : Fin 512), i = ix2 r d := ⟨i 0, i 1, eq_ix2 i⟩
  unfold res_main_v150 res_main_v129
  exact cell_group V0 4 8192 2048 rfl rfl _ _ r d

/-- Group 4's new hidden run is piece 4 of the new hidden state. -/
theorem piece_hid_4 (V0 : Valuation τ sig (Elt Ideal)) :
    (mulf (Host.tanh (res_main_v150 V0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (res_main_v129 V0) slices_S8192x2048_S8192x512_0_1536)))))) = hidPiece V0 4 := by
  funext i
  obtain ⟨r, d, rfl⟩ : ∃ (r : Fin 8192) (d : Fin 512), i = ix2 r d := ⟨i 0, i 1, eq_ix2 i⟩
  unfold res_main_v129
  exact hid_group V0 4 8192 rfl _ (res_main_v150 V0) (piece_cell_4 V0) r d

/-- Five pieces of 512 columns side by side, read at column n: piece n / 512 at column n % 512. -/
theorem concat5_apply (f : Fin 5 → (S8192x512.Idx → EReal)) (r : Fin 8192) (n : Fin 2560) :
    concatenate S8192x2560 1 [⟨S8192x512, f 0⟩, ⟨S8192x512, f 1⟩, ⟨S8192x512, f 2⟩, ⟨S8192x512, f 3⟩, ⟨S8192x512, f 4⟩] concatenates_S8192x512_S8192x512_S8192x512_S8192x512_S8192x512_S8192x2560_d1 (ix2 r n)
      = f ⟨n.val / 512, by have := n.isLt; omega⟩ (ix2 r ⟨n.val % 512, Nat.mod_lt _ (by decide)⟩) :=
  concatenate_ofFn_apply (t := S8192x2560) (s₁ := S8192x512) 1 f concatenates_S8192x512_S8192x512_S8192x512_S8192x512_S8192x512_S8192x2560_d1 rfl 512 rfl (ix2 r n)
    ⟨n.val / 512, by have := n.isLt; omega⟩ rfl (ix2 r ⟨n.val % 512, Nat.mod_lt _ (by decide)⟩) rfl (fun b hb => by
      match b with
      | ⟨0, _⟩ => rfl
      | ⟨1, _⟩ => exact (hb (Fin.ext rfl)).elim)

/-- Column 512·(n / 512) + n % 512 is column n. -/
theorem hcol_div_mod (n : Fin 2560) :
    hcol ⟨n.val / 512, by have := n.isLt; omega⟩ ⟨n.val % 512, Nat.mod_lt _ (by decide)⟩ = n :=
  Fin.ext (Nat.div_add_mod n.val 512)

/-! ## The two results -/

/-- The reference's second result is the specification's new cell state. -/
theorem cell_eq (V0 : Valuation τ sig (Elt Ideal)) :
    concatenate S8192x2560 1 [⟨S8192x512, (res_main_v30 V0)⟩, ⟨S8192x512, (res_main_v60 V0)⟩, ⟨S8192x512, (res_main_v90 V0)⟩, ⟨S8192x512, (res_main_v120 V0)⟩, ⟨S8192x512, (res_main_v150 V0)⟩] concatenates_S8192x512_S8192x512_S8192x512_S8192x512_S8192x512_S8192x2560_d1
      = Cert.LstmSpec.newCell (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  rw [piece_cell_0 V0, piece_cell_1 V0, piece_cell_2 V0, piece_cell_3 V0, piece_cell_4 V0]
  funext j
  obtain ⟨r, n, rfl⟩ : ∃ (r : Fin 8192) (n : Fin 2560), j = ix2 r n := ⟨j 0, j 1, eq_ix2 j⟩
  rw [concat5_apply (cellPiece V0) r n]
  show specCell V0 r (hcol _ _) = specCell V0 r n
  rw [hcol_div_mod n]

/-- The reference's first result is the specification's new hidden state. -/
theorem hid_eq (V0 : Valuation τ sig (Elt Ideal)) :
    concatenate S8192x2560 1 [⟨S8192x512, (mulf (Host.tanh (res_main_v30 V0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (res_main_v9 V0) slices_S8192x2048_S8192x512_0_1536))))))⟩, ⟨S8192x512, (mulf (Host.tanh (res_main_v60 V0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (res_main_v39 V0) slices_S8192x2048_S8192x512_0_1536))))))⟩, ⟨S8192x512, (mulf (Host.tanh (res_main_v90 V0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (res_main_v69 V0) slices_S8192x2048_S8192x512_0_1536))))))⟩, ⟨S8192x512, (mulf (Host.tanh (res_main_v120 V0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (res_main_v99 V0) slices_S8192x2048_S8192x512_0_1536))))))⟩, ⟨S8192x512, (mulf (Host.tanh (res_main_v150 V0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 1536] (res_main_v129 V0) slices_S8192x2048_S8192x512_0_1536))))))⟩] concatenates_S8192x512_S8192x512_S8192x512_S8192x512_S8192x512_S8192x2560_d1
      = Cert.LstmSpec.newHid (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  rw [piece_hid_0 V0, piece_hid_1 V0, piece_hid_2 V0, piece_hid_3 V0, piece_hid_4 V0]
  funext j
  obtain ⟨r, n, rfl⟩ : ∃ (r : Fin 8192) (n : Fin 2560), j = ix2 r n := ⟨j 0, j 1, eq_ix2 j⟩
  rw [concat5_apply (hidPiece V0) r n]
  show specHid V0 r (hcol _ _) = specHid V0 r n
  rw [hcol_div_mod n]

end Cert.ReferenceIdeal.RefValue

end
-- ==== Proof.lean ====
/-
  The claim: the fused cell-update kernel and its reference compute the same new hidden and cell states on the extended reals.

  Both programs compute, from the input x, the states h and c, the weights W_x, W_h and the biases b_x, b_h,
      gate = x·W_x + h·W_h + b_x + b_h                      ([8192, 10240]; five groups of four runs of 512 columns),
      c' = tanh(gate_0) · σ(gate_1) + c · σ(gate_2),        h' = tanh(c') · σ(gate_3)           (per group, per run).
  The kernel adds the gate's four terms as (x·W_x + h·W_h) + (b_x + b_h), block by block on a 5 × 32 grid, its matrix
  operands narrowed to bf16 first — the identity on extended reals; the reference adds them as ((x·W_x + b_x) + h·W_h) + b_h
  on whole arrays, slices the groups out and concatenates the five results. Addition of extended reals is commutative and
  associative, so the two gates agree without any finiteness; the logistic function is 1 / (1 + e^(-x)) in both.
  The specification is LstmSpec; the kernel's side is LstmPayload, LstmBlock and LstmWindows over the generated frame and
  value leg, the reference's side RefSide over its generated run. No rewrite was applied in idealizing the kernel.
-/
import proofs.«134608_j84550726189464_1_alg».proof.Defs
import proofs.«134608_j84550726189464_1_alg».proof.Proof.Gen.Kernel
import proofs.«134608_j84550726189464_1_alg».proof.Proof.Gen.Kernel.Skeleton
import proofs.«134608_j84550726189464_1_alg».proof.Proof.Gen.Kernel.Launch
import proofs.«134608_j84550726189464_1_alg».proof.Proof.Gen.Kernel.Points
import proofs.«134608_j84550726189464_1_alg».proof.Proof.Gen.Kernel.Frame
import proofs.«134608_j84550726189464_1_alg».proof.Proof.Gen.KernelIdeal
import proofs.«134608_j84550726189464_1_alg».proof.Proof.Gen.KernelIdeal.Skeleton
import proofs.«134608_j84550726189464_1_alg».proof.Proof.Gen.KernelIdeal.Launch
import proofs.«134608_j84550726189464_1_alg».proof.Proof.Gen.KernelIdeal.Points
import proofs.«134608_j84550726189464_1_alg».proof.Proof.Gen.KernelIdeal.Frame
import proofs.«134608_j84550726189464_1_alg».proof.Proof.Gen.ReferenceIdeal
import proofs.«134608_j84550726189464_1_alg».proof.Proof.Gen.Pre_finite_inputs
import proofs.«134608_j84550726189464_1_alg».proof.Proof.Gen.KernelIdeal.Value
import proofs.«134608_j84550726189464_1_alg».proof.Proof.Gen.ReferenceIdeal.Run
import proofs.«134608_j84550726189464_1_alg».proof.Proof.LstmSpec
import proofs.«134608_j84550726189464_1_alg».proof.Proof.LstmWindows
import proofs.«134608_j84550726189464_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a host program: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both runs end with the specification's new hidden and cell states of arguments that agree. -/
theorem algebraic : Cert.algebraic_KernelIdeal_ReferenceIdeal := by
  intro m ρ m' ρ' _ hagree
  refine ⟨fun c => Cert.KernelIdeal.Hand.H1 m c, fun c => Cert.KernelIdeal.Hand.C1 m c, Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [Cert.ReferenceIdeal.RefValue.hid_eq]
    show Cert.LstmSpec.newHid (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    rw [a0, a1, a2, a3, a4, a5, a6]
  · rw [Cert.ReferenceIdeal.RefValue.cell_eq]
    show Cert.LstmSpec.newCell (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
